-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S16384x128 : Shape := ⟨2, ![16384, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : FVec F S8192x128 .f32) (main_arg1 : FVec F S16384x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  main_v8
-- ==== Kernel.lean ====
abbrev S8192x128 : Shape := ⟨2, ![8192, 128]⟩
abbrev S16384x128 : Shape := ⟨2, ![16384, 128]⟩
abbrev S8192 : Shape := ⟨1, ![8192]⟩
abbrev S512x128 : Shape := ⟨2, ![512, 128]⟩
abbrev S2048x128 : Shape := ⟨2, ![2048, 128]⟩
abbrev S512 : Shape := ⟨1, ![512]⟩
abbrev S512x1 : Shape := ⟨2, ![512, 1]⟩
abbrev S2048 : Shape := ⟨1, ![2048]⟩
abbrev S2048x1 : Shape := ⟨2, ![2048, 1]⟩
abbrev S512x2048 : Shape := ⟨2, ![512, 2048]⟩
abbrev S1x2048 : Shape := ⟨2, ![1, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S16384x128, .f32⟩
  | .hbm, ⟨2, _⟩ => ⟨S8192, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S512, .f32⟩
  | .local _ .vmem, ⟨5, _⟩ => ⟨S512, .f32⟩
  | .local _ .vmem, ⟨6, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_14 : BitVec 32 := 0#32
  let v36 : BitVec 1 := Scalar.cmpi .ne v35 c0_i32_14
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  inb_S2048x128_S2048x128_0_0 : ∀ a, (![0, 0] : Fin 2 → Nat) a + S2048x128.size a ≤ S2048x128.size a
  h_S2048x128 : 0 < S2048x128.numel
  reduces_S512x128_S512 : S512x128.Reduces [1] S512
  shapeCasts_S512_S512x1 : S512.ShapeCasts S512x1
  reduces_S2048x128_S2048 : S2048x128.Reduces [1] S2048
  shapeCasts_S2048_S2048x1 : S2048.ShapeCasts S2048x1
  bitsLt_bf16_f32 : FTy.bits .bf16 < FTy.bits .f32
  shapeCasts_S2048x1_S2048 : S2048x1.ShapeCasts S2048
  shapeCasts_S2048_S1x2048 : S2048.ShapeCasts S1x2048
  broadcasts_S512x1_S512x2048 : S512x1.Broadcasts S512x2048
  broadcasts_S1x2048_S512x2048 : S1x2048.Broadcasts S512x2048
  reduces_S512x2048_S512 : S512x2048.Reduces [1] S512
  shapeCasts_S512x1_S512 : S512x1.ShapeCasts S512
  inb_S512_S512_0 : ∀ a, (![0] : Fin 1 → Nat) a + S512.size a ≤ S512.size a
  h_S512 : 0 < S512.numel
  dot_S512x128_S2048x128_S512x2048_1_1_0_0_n_n_wf : DotDims.WF S512x128 S2048x128 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .f32 = 32 ∨ (Rect.block (s := S16384x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S8192.size a
  hwx0_2 : ∀ i : grid0.Coords, EltTy.bits .f32 = 32 ∨ (Rect.block (s := S8192) S512.size (cc0_transform_2 i) (hinb0_2 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S16384x128 : Shape := ⟨2, ![16384, 128]⟩
abbrev S_ : Shape := ⟨0, ![]⟩
abbrev S8192 : Shape := ⟨1, ![8192]⟩
abbrev S8192x1 : Shape := ⟨2, ![8192, 1]⟩
abbrev S16384 : Shape := ⟨1, ![16384]⟩
abbrev S128x16384 : Shape := ⟨2, ![128, 16384]⟩
abbrev S8192x16384 : Shape := ⟨2, ![8192, 16384]⟩
abbrev S1x16384 : Shape := ⟨2, ![1, 16384]⟩

abbrev nBuf : Space → Nat
  | .hbm => 41
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S16384x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S16384x128, .f32⟩
  | .hbm, ⟨7, _⟩ => ⟨S_, .f32⟩
  | .hbm, ⟨8, _⟩ => ⟨S16384, .f32⟩
  | .hbm, ⟨9, _⟩ => ⟨S128x16384, .f32⟩
  | .hbm, ⟨10, _⟩ => ⟨S8192x16384, .f32⟩
  | .hbm, ⟨11, _⟩ => ⟨S1x16384, .f32⟩
  | .hbm, ⟨12, _⟩ => ⟨S8192x16384, .f32⟩
  | .hbm, ⟨13, _⟩ => ⟨S8192x16384, .f32⟩
  | .hbm, ⟨14, _⟩ => ⟨S8192x16384, .f32⟩
  | .hbm, ⟨15, _⟩ => ⟨S_, .f32⟩
  | .hbm, ⟨16, _⟩ => ⟨S8192x16384, .f32⟩
  | .hbm, ⟨17, _⟩ => ⟨S8192x16384, .f32⟩
  | .hbm, ⟨18, _⟩ => ⟨S8192x16384, .f32⟩
  | .hbm, ⟨19, _⟩ => ⟨S8192x16384, .f32⟩
  | .hbm, ⟨20, _⟩ => ⟨S_, .f32⟩
  | .hbm, ⟨21, _⟩ => ⟨S8192x16384, .f32⟩
  | .hbm, ⟨22, _⟩ => ⟨S8192x16384, .f32⟩
  | .hbm, ⟨23, _⟩ => ⟨S8192x16384, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  reducesTo_S16384x128_S16384_d1 : S16384x128.ReducesTo [1] S16384
  transposes_S16384x128_S128x16384_1_0 : S16384x128.Transposes [1, 0] S128x16384
  bcast_S16384_S1x16384_1 : S16384.BroadcastsInDim S1x16384 (![1] : Fin 1 → Fin S1x16384.rank)
  bcast_S8192x1_S8192x16384_0_1 : S8192x1.BroadcastsInDim S8192x16384 (![0, 1] : Fin 2 → Fin S8192x16384.rank)
  bcast_S1x16384_S8192x16384_0_1 : S1x16384.BroadcastsInDim S8192x16384 (![0, 1] : Fin 2 → Fin S8192x16384.rank)
  bcast_S_S8192x16384 : S_.BroadcastsInDim S8192x16384 (![] : Fin 0 → Fin S8192x16384.rank)
  reducesTo_S8192x16384_S8192_d1 : S8192x16384.ReducesTo [1] S8192
  bcast_S_S8192 : S_.BroadcastsInDim S8192 (![] : Fin 0 → Fin S8192.rank)
  dot_S8192x128_S128x16384_S8192x16384_1_0_0_1_n_n_wf : DotDims.WF S8192x128 S128x16384 S8192x16384 [1] [0] [0] [1] [] []

variable [Facts₀]

def dot_S8192x128_S128x16384_S8192x16384_1_0_0_1_n_n : DotDims S8192x128 S128x16384 S8192x16384 where
  lhsContracting := [1]
  rhsContracting := [0]
  lhsNonContracting := [0]
  rhsNonContracting := [1]
  lhsBatch := []
  rhsBatch := []
  wf := dot_S8192x128_S128x16384_S8192x16384_1_0_0_1_n_n_wf

class Facts : Prop extends Facts₀ where

variable [Facts]
-- ==== Proof.Pieces.lean ====
/-
  What the kernel body leaves behind at one grid point, as values.

  The grid runs over 16 row blocks of 512 rows and, inside each, 8 column tiles of 2048 columns. A column of 512
  running sums is carried from tile to tile. At the first tile of a row block the body resets the column to zero
  before adding the tile's row sums; at the other tiles it adds the tile's row sums to what the column held; at the
  last tile it also writes the closing formula of the finished column to the output block. Each of these is ONE store
  of a value computed from the two input blocks and the column, so what a buffer holds afterwards is that value.
-/
import proofs.«180655_j37855841747666_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- At a grid point that is neither the first nor the last of its row block, the body leaves in the carried column
    the one value it stores there: the running column plus this tile's row sums, a function of the two input
    blocks and of what the column held. -/
theorem scratch_B (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S512 .f32) (harg4 : arg4.IsWhole) (arg5 : Memref sig .tc .vmem S512x1 .f32) (harg5 : arg5.IsWhole) (hc0 : ¬cond0_0 i) (hc1 : ¬cond0_1 i)
    (x0 : Vec F S512x128 .f32) (x1 : Vec F S2048x128 .f32) (xs0 : Vec F S512x1 .f32) :
    sout0_B_0 c i arg2 harg2 arg3 harg3 arg4 harg4 arg5 harg5 hc0 hc1 x0 x1 xs0 = k0_pay3 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz2]
  simp only [View.readAt_eq_ld, harg2.read_unread, harg3.read_unread, harg5.read_unread,
    View.ld_unit_zero (S := S512x128) hz2, View.ld_unit_zero (S := S2048x128) hz2, View.ld_unit_zero (S := S512x1) hz2]

/-- At the first grid point of a row block the body first stores the zero column, reads it back, and stores the
    zero column plus this tile's row sums. -/
theorem scratch_A (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S512 .f32) (harg4 : arg4.IsWhole) (arg5 : Memref sig .tc .vmem S512x1 .f32) (harg5 : arg5.IsWhole) (hc0 : cond0_0 i) (hc1 : ¬cond0_1 i)
    (x0 : Vec F S512x128 .f32) (x1 : Vec F S2048x128 .f32) :
    sout0_A_0 c i arg2 harg2 arg3 harg3 arg4 harg4 arg5 harg5 hc0 hc1 x0 x1 = k0_pay3 x0 x1 (k0_pay2 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x1) hz2, View.readCov_unit_zero (S := S512x1) _ hz2]
  simp only [View.readAt_eq_ld, harg2.read_unread, harg3.read_unread,
    View.ld_unit_zero (S := S512x128) hz2, View.ld_unit_zero (S := S2048x128) hz2]

/-- At the last grid point of a row block the carried column is updated as at the middle points, -/
theorem scratch_C (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S512 .f32) (harg4 : arg4.IsWhole) (arg5 : Memref sig .tc .vmem S512x1 .f32) (harg5 : arg5.IsWhole) (hc0 : ¬cond0_0 i) (hc1 : cond0_1 i)
    (x0 : Vec F S512x128 .f32) (x1 : Vec F S2048x128 .f32) (xs0 : Vec F S512x1 .f32) :
    sout0_C_0 c i arg2 harg2 arg3 harg3 arg4 harg4 arg5 harg5 hc0 hc1 x0 x1 xs0 = k0_pay3 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S512x128) hz2, View.ld_unit_zero (S := S2048x128) hz2, View.ld_unit_zero (S := S512x1) hz2]

/-- and the output block receives the closing formula of the updated column, which the body reads back. -/
theorem out_C (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S512 .f32) (harg4 : arg4.IsWhole) (arg5 : Memref sig .tc .vmem S512x1 .f32) (harg5 : arg5.IsWhole) (hc0 : ¬cond0_0 i) (hc1 : cond0_1 i)
    (x0 : Vec F S512x128 .f32) (x1 : Vec F S2048x128 .f32) (xs0 : Vec F S512x1 .f32) :
    out0_C_2 c i arg2 harg2 arg3 harg3 arg4 harg4 arg5 harg5 hc0 hc1 x0 x1 xs0 = k0_pay1 (k0_pay3 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz1, View.readCov_unit_zero (S := S512x1) _ hz2]
  simp only [View.readAt_eq_ld, harg2.read_unread, harg3.read_unread, harg5.read_unread,
    View.ld_unit_zero (S := S512x128) hz2, View.ld_unit_zero (S := S2048x128) hz2, View.ld_unit_zero (S := S512x1) hz2]

end Cert.KernelIdeal.Pieces

end
-- ==== Proof.Spec.lean ====
/-
  The statistic both programs compute, as one function of the two argument arrays.

  X is an [8192, 128] array of rows x_r and Y a [16384, 128] array of rows y_s. For a pair of rows the squared
  distance is written in its expanded form |x_r|² + |y_s|² − 2·⟨x_r, y_s⟩, the Gaussian weight of the pair is
  exp(−d² / 1), and K_r is the sum of the weights of row r against every row of Y. The result at r is
  sqrt(K_r / m² − 2·K_r / m + K_r) + ε with m = 16384, m² = 2²⁸ and ε the float nearest 1e-16.

  Everything is read on the extended reals, with the exact operations; the five float literals are kept as the
  values their words denote, the same words on both sides, and are never evaluated.

  The entry of a pair of rows is defined for arrays of any number of rows, so that a block of rows cut out of X or Y
  is an argument like the whole array.
-/
import Idealize.ShloMosaic.PureOps.Ideal
import Idealize.ShloMosaic.Lib.ValueIdx

noncomputable section

namespace Cert.Mmd

open Idealize.ShloMosaic Idealize.ShloMosaic.ValueIdx

/-- The literal 2.0. -/
abbrev two : EReal := Ideal.ofBits .f32 0x40000000#32
/-- The literal 1.0 (the squared bandwidth the distance is divided by). -/
abbrev one : EReal := Ideal.ofBits .f32 0x3F800000#32
/-- The literal 2²⁸ = 16384². -/
abbrev countSq : EReal := Ideal.ofBits .f32 0x4D800000#32
/-- The literal 16384. -/
abbrev count : EReal := Ideal.ofBits .f32 0x46800000#32
/-- The literal nearest 1e-16. -/
abbrev eps : EReal := Ideal.ofBits .f32 0x24E69595#32

/-- The squared norm of row p. -/
def sqNorm {A : ℕ} (x : (⟨2, ![A, 128]⟩ : Shape).Idx → EReal) (p : Fin A) : EReal :=
  ∑ k : Fin 128, x (ix2 p k) * x (ix2 p k)

/-- The inner product of row p of x with row q of y. -/
def inner {A B : ℕ} (x : (⟨2, ![A, 128]⟩ : Shape).Idx → EReal) (y : (⟨2, ![B, 128]⟩ : Shape).Idx → EReal)
    (p : Fin A) (q : Fin B) : EReal :=
  ∑ k : Fin 128, x (ix2 p k) * y (ix2 q k)

/-- The Gaussian weight of row p of x against row q of y: exp of minus the expanded squared distance, over 1. -/
def weight {A B : ℕ} (x : (⟨2, ![A, 128]⟩ : Shape).Idx → EReal) (y : (⟨2, ![B, 128]⟩ : Shape).Idx → EReal)
    (p : Fin A) (q : Fin B) : EReal :=
  Ideal.exp (Ideal.div (-((sqNorm x p + sqNorm y q) - two * inner x y p q)) one)

/-- The closing formula applied to a row's sum of weights. -/
def closing (K : EReal) : EReal :=
  Ideal.sqrt ((Ideal.div K countSq - Ideal.div (two * K) count) + K) + eps

/-- THE RESULT: at row r, the closing formula of the sum over all 16384 rows of Y of the weights of row r. -/
def result (X : (⟨2, ![8192, 128]⟩ : Shape).Idx → EReal) (Y : (⟨2, ![16384, 128]⟩ : Shape).Idx → EReal) :
    (⟨1, ![8192]⟩ : Shape).Idx → EReal :=
  fun i => closing (∑ s : Fin 16384, weight X Y (i 0) s)

theorem result_apply (X : (⟨2, ![8192, 128]⟩ : Shape).Idx → EReal) (Y : (⟨2, ![16384, 128]⟩ : Shape).Idx → EReal)
    (r : Fin 8192) : result X Y (ix1 r) = closing (∑ s : Fin 16384, weight X Y r s) := rfl

end Cert.Mmd

end
-- ==== Proof.LibColumn.lean ====
/-
  Layout facts about columns and rows, independent of any program.

  A column is an array of shape [a, 1]. Broadcasting it to [a, b] repeats each row's single entry across the b
  positions of that row, so the entry at (p, c) is the column's entry at row p. Casting a vector of shape [a] to the
  column shape [a, 1] keeps the row-major order, so the entry at (i, 0) is the vector's entry at i.

  The host spells the same repetitions with an explicit map from the operand's axes to the result's axes: a vector
  [b] placed on axis 1 of [1, b] is read at its own position; a vector [a] placed on axis 0 of [a, 1] likewise; a row
  [1, b] or a column [a, 1] repeated to [a, b] is read at the one row, or the one column, it has; a scalar repeated to
  any shape is read at its one entry.
-/
import Idealize.ShloMosaic.Lib.ValueIdx
import Idealize.ShloMosaic.Lib.Pipeline.Value

noncomputable section

namespace Cert.Lib

open Idealize.ShloMosaic Idealize.ShloMosaic.ValueIdx

variable {α : Type}

/-- A column [a, 1] broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column shape [a, 1] reads, at (i, u), the vector's entry at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector [b] placed on axis 1 of [1, b] reads, at (u, q), the vector's entry at q. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A vector [a] placed on axis 0 of [a, 1] reads, at (p, u), the vector's entry at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A row [1, b] repeated to [a, b], axes kept in place, reads at (p, q) the row's entry at q. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ => rfl
  | ⟨1, _⟩ =>
    show q.val = if b = 1 then 0 else q.val
    split
    · have := q.isLt; omega
    · rfl

/-- A column [a, 1] repeated to [a, b], axes kept in place, reads at (p, q) the column's entry at p. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A scalar repeated to any shape reads, everywhere, its one entry. -/
theorem broadcastInDim_scalar_apply {s : Shape} (x : (⟨0, ![]⟩ : Shape).Idx → α)
    (h : (⟨0, ![]⟩ : Shape).BroadcastsInDim s ![]) (i : s.Idx) :
    broadcastInDim s ![] h x i = x ix0 :=
  broadcastInDim_apply ![] h x i ix0 fun ax => ax.elim0

end Cert.Lib

end
-- ==== Proof.LibGram.lean ====
/-
  The product of an [M, K] matrix with the transpose of an [N, K] matrix — both operands contracted on their second
  axis — read at an output index. Independent of any program.

  With no batch axis the contraction index has one coordinate, running over the K shared positions; at the output
  index (p, q) the left operand is read at (p, k) and the right at (q, k). So the contraction's sum over its own index
  type is the sum over k of l (p, k) · r (q, k): the inner product of row p of the left operand with row q of the
  right one.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a product of rows with rows, [M, K] × [N, K] → [M, N]. -/
abbrev rowsDot (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

/-- THE CONTRACTION AS A SUM OVER k: at the output index (p, q) the product's terms are l (p, k) · r (q, k). -/
theorem rowsDot_sum {M K N : Nat}
    (wf : DotDims.WF ⟨2, ![M, K]⟩ ⟨2, ![N, K]⟩ ⟨2, ![M, N]⟩ [1] [1] [0] [0] [] [])
    (l : (⟨2, ![M, K]⟩ : Shape).Idx → EReal) (r : (⟨2, ![N, K]⟩ : Shape).Idx → EReal) (p : Fin M) (q : Fin N) :
    ∑ k : (rowsDot M K N wf).contr.Idx,
        l ((rowsDot M K N wf).lhsIdx (ix2 p q) k) * r ((rowsDot M K N wf).rhsIdx (ix2 p q) k)
      = ∑ k : Fin K, l (ix2 p k) * r (ix2 q k) := by
  rw [← Equiv.sum_comp (contrEquiv1 (rowsDot M K N wf) K rfl rfl).symm]
  refine Finset.sum_congr rfl fun k _ => ?_
  have hk := contrEquiv1_symm_val (rowsDot M K N wf) K rfl rfl k
  have el : (rowsDot M K N wf).lhsIdx (ix2 p q) ((contrEquiv1 (rowsDot M K N wf) K rfl rfl).symm k) = ix2 p k :=
    funext fun a => Fin.ext (by
      match a with
      | ⟨0, _⟩ =>
        show ((rowsDot M K N wf).lhsIdx (ix2 p q) ((contrEquiv1 (rowsDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((rowsDot M K N wf).lhsIdx_val_of_single rfl (ix2 p q) _).trans hk)
  have er : (rowsDot M K N wf).rhsIdx (ix2 p q) ((contrEquiv1 (rowsDot M K N wf) K rfl rfl).symm k) = ix2 q k :=
    funext fun a => Fin.ext (by
      match a with
      | ⟨0, _⟩ =>
        show ((rowsDot M K N wf).rhsIdx (ix2 p q) ((contrEquiv1 (rowsDot M K N wf) K rfl rfl).symm k) 0).val = q.val
        unfold DotDims.rhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((rowsDot M K N wf).rhsIdx_val_of_single rfl (ix2 p q) _).trans hk)
  rw [el, er]

/-- A kernel's product of rows with rows into a zero accumulator, at (p, q). -/
theorem matmul_rows_zero_apply {M K N : Nat} {φ₁ φ₂ : FTy}
    (wf : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    FloatOps.matmul (rowsDot M K N wf) prec l r (constant (F := Ideal) ⟨2, ![M, N]⟩ .f32 0x00000000#32) (ix2 p q)
      = ∑ k : Fin K, l (ix2 p k) * r (ix2 q k) := by
  rw [Ideal.matmul_constant_zero_apply]
  exact rowsDot_sum wf l r p q

/-- The host's product of rows with rows, at (p, q). -/
theorem dotGeneral_rows_apply {M K N : Nat} {φ₁ φ₂ : FTy}
    (wf : DotDims.WF ⟨2, ![M, K]⟩ ⟨2, ![N, K]⟩ ⟨2, ![M, N]⟩ [1] [1] [0] [0] [] [])
    (prec : Option ContractPrecision) (sched : HostSchedule) (l : FVec Ideal ⟨2, ![M, K]⟩ φ₁) (r : FVec Ideal ⟨2, ![N, K]⟩ φ₂)
    (p : Fin M) (q : Fin N) :
    FloatOps.dotGeneral (rowsDot M K N wf) prec sched l r (ix2 p q)
      = ∑ k : Fin K, l (ix2 p k) * r (ix2 q k) := by
  rw [Ideal.dotGeneral_apply]
  exact rowsDot_sum wf l r p q

end Cert.Lib

end
-- ==== Proof.LibTileSum.lean ====
/-
  Two small facts about sums and columns, independent of any program.

  A sum over the first m·n naturals can be taken tile by tile: n consecutive tiles of m positions each, tile s holding
  the positions m·s, m·s + 1, …, m·s + (m − 1). Only commutativity and associativity of the addition are used, so the
  fact holds in every commutative additive monoid — the extended reals included, infinities and all.

  A column of shape [a, 1] cast to the vector shape [a] keeps the row-major order, so the vector's entry at i is the
  column's entry at (i, 0).
-/
import Idealize.ShloMosaic.Lib.ValueIdx
import Idealize.ShloMosaic.Lib.Pipeline.Value

noncomputable section

namespace Cert.Lib

open Idealize.ShloMosaic Idealize.ShloMosaic.ValueIdx

/-- The first m·n naturals, summed tile by tile. -/
theorem sum_range_tiles {β : Type*} [AddCommMonoid β] (g : ℕ → β) (m : ℕ) : ∀ n : ℕ,
    ∑ s ∈ Finset.range n, ∑ q ∈ Finset.range m, g (m * s + q) = ∑ k ∈ Finset.range (m * n), g k
  | 0 => by simp
  | n + 1 => by
    rw [Finset.sum_range_succ, sum_range_tiles g m n, Nat.mul_succ, Finset.sum_range_add]

/-- The same with each tile's positions and the whole range as finite index types. -/
theorem sum_fin_tiles {β : Type*} [AddCommMonoid β] (g : ℕ → β) (m n : ℕ) {N : ℕ} (hN : m * n = N) :
    ∑ s ∈ Finset.range n, ∑ q : Fin m, g (m * s + q.val) = ∑ k : Fin N, g k.val := by
  subst hN
  rw [← Finset.sum_range (fun k => g k), ← sum_range_tiles g m n]
  exact Finset.sum_congr rfl fun s _ => (Finset.sum_range (fun q => g (m * s + q))).symm

variable {α : Type}

/-- A column [a, 1] cast to the vector shape [a] reads, at i, the column's entry at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib

end
-- ==== Proof.Payload.lean ====
import proofs.«180655_j37855841747666_1_alg».proof.Proof.Gen.KernelIdeal.Skeleton
import proofs.«180655_j37855841747666_1_alg».proof.Proof.Spec
import proofs.«180655_j37855841747666_1_alg».proof.Proof.LibColumn
import proofs.«180655_j37855841747666_1_alg».proof.Proof.LibGram
import proofs.«180655_j37855841747666_1_alg».proof.Proof.LibTileSum
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Mmd

/-- Inserting the summed position k into row p of a [512, 128] block gives the entry (p, k). -/
theorem lift512x128 (p : Fin 512) (k : Fin 128) : reduces_S512x128_S512.lift (ix1 p) k = ix2 p k :=
  funext fun a => Fin.ext (by match a with | ⟨0, _⟩ => rfl | ⟨1, _⟩ => rfl)

theorem lift2048x128 (q : Fin 2048) (k : Fin 128) : reduces_S2048x128_S2048.lift (ix1 q) k = ix2 q k :=
  funext fun a => Fin.ext (by match a with | ⟨0, _⟩ => rfl | ⟨1, _⟩ => rfl)

theorem lift512x2048 (p : Fin 512) (q : Fin 2048) : reduces_S512x2048_S512.lift (ix1 p) q = ix2 p q :=
  funext fun a => Fin.ext (by match a with | ⟨0, _⟩ => rfl | ⟨1, _⟩ => rfl)

/-- The row sums of squares of the first block, kept as a column: at (p, ·) the squared norm of row p. -/
theorem sqcol512 (v : FVec Ideal S512x128 .f32) (p : Fin 512) (u : Fin 1) :
    shapeCast S512x1 (multiReduction .add [1] S512 (mulf v v) 0x00000000#32 reduces_S512x128_S512 (.inl rfl) rfl)
      shapeCasts_S512_S512x1 (ix2 p u) = sqNorm v p := by
  refine (Cert.Lib.shapeCast_a_a1_apply _ _ p u).trans ?_
  refine (Ideal.multiReduction_add_single _ _ reduces_S512x128_S512 _ _ (ix1 p)).trans ?_
  exact Finset.sum_congr rfl fun k _ => congrArg (mulf v v) (lift512x128 p k)

/-- The same for the second block. -/
theorem sqcol2048 (v : FVec Ideal S2048x128 .f32) (q : Fin 2048) (u : Fin 1) :
    shapeCast S2048x1 (multiReduction .add [1] S2048 (mulf v v) 0x00000000#32 reduces_S2048x128_S2048 (.inl rfl) rfl)
      shapeCasts_S2048_S2048x1 (ix2 q u) = sqNorm v q := by
  refine (Cert.Lib.shapeCast_a_a1_apply _ _ q u).trans ?_
  refine (Ideal.multiReduction_add_single _ _ reduces_S2048x128_S2048 _ _ (ix1 q)).trans ?_
  exact Finset.sum_congr rfl fun k _ => congrArg (mulf v v) (lift2048x128 q k)

/-- The [512, 2048] tile of Gaussian weights the body computes from its two input blocks. -/
def tileWeights (x0 : FVec Ideal S512x128 .f32) (x1 : FVec Ideal S2048x128 .f32) : FVec Ideal S512x2048 .f32 :=
  exp (divf (subf (broadcast S512x2048 (Scalar.ofBits .f32 0x00000000#32))
    (subf (addf
        (broadcastTo S512x2048 (shapeCast S512x1 (multiReduction .add [1] S512 (mulf x0 x0) 0x00000000#32 reduces_S512x128_S512 (.inl rfl) rfl) shapeCasts_S512_S512x1) broadcasts_S512x1_S512x2048)
        (broadcastTo S512x2048 (shapeCast S1x2048 (shapeCast S2048 (shapeCast S2048x1 (multiReduction .add [1] S2048 (mulf x1 x1) 0x00000000#32 reduces_S2048x128_S2048 (.inl rfl) rfl) shapeCasts_S2048_S2048x1) shapeCasts_S2048x1_S2048) shapeCasts_S2048_S1x2048) broadcasts_S1x2048_S512x2048))
      (mulf (broadcast S512x2048 (Scalar.ofBits .f32 0x40000000#32))
        (matmul dot_S512x128_S2048x128_S512x2048_1_1_0_0_n_n none (truncf .bf16 x0 bitsLt_bf16_f32) (truncf .bf16 x1 bitsLt_bf16_f32) (constant S512x2048 .f32 0x00000000#32)))))
    (broadcast S512x2048 (Scalar.ofBits .f32 0x3F800000#32)))

/-- The value the body stores into the carried column: the column plus the tile's row sums. -/
theorem pay3_eq (x0 : FVec Ideal S512x128 .f32) (x1 : FVec Ideal S2048x128 .f32) (acc : FVec Ideal S512x1 .f32) :
    k0_pay3 (F := Ideal) x0 x1 acc = shapeCast S512x1 (addf acc (shapeCast S512x1
      (multiReduction .add [1] S512 (tileWeights x0 x1) 0x00000000#32 reduces_S512x2048_S512 (.inl rfl) rfl) shapeCasts_S512_S512x1))
      shapeCasts_S512x1_S512x1 := rfl

/-- The first block's squared norms, kept as a column and repeated along the tile's rows: at (p, q) that of row p. -/
theorem normRow_apply (x0 : FVec Ideal S512x128 .f32) (p : Fin 512) (q : Fin 2048) :
    broadcastTo S512x2048 (shapeCast S512x1 (multiReduction .add [1] S512 (mulf x0 x0) 0x00000000#32 reduces_S512x128_S512 (.inl rfl) rfl) shapeCasts_S512_S512x1) broadcasts_S512x1_S512x2048 (ix2 p q) = sqNorm x0 p :=
  (Cert.Lib.broadcastTo_a1_ab_apply _ broadcasts_S512x1_S512x2048 p q).trans (sqcol512 x0 p 0)

/-- The second block's squared norms, laid out as one row and repeated down the tile: at (p, q) that of row q. -/
theorem normCol_apply (x1 : FVec Ideal S2048x128 .f32) (p : Fin 512) (q : Fin 2048) :
    broadcastTo S512x2048 (shapeCast S1x2048 (shapeCast S2048 (shapeCast S2048x1 (multiReduction .add [1] S2048 (mulf x1 x1) 0x00000000#32 reduces_S2048x128_S2048 (.inl rfl) rfl) shapeCasts_S2048_S2048x1) shapeCasts_S2048x1_S2048) shapeCasts_S2048_S1x2048) broadcasts_S1x2048_S512x2048 (ix2 p q) = sqNorm x1 q :=
  (broadcastTo_1b_ab_apply _ broadcasts_S1x2048_S512x2048 p q).trans ((shapeCast_a_1a_apply _ shapeCasts_S2048_S1x2048 0 q).trans
    ((Cert.Lib.shapeCast_a1_a_apply _ shapeCasts_S2048x1_S2048 q).trans (sqcol2048 x1 q 0)))

/-- The product of the first block's rows with the second block's rows, into a zero accumulator: at (p, q) the
    inner product of row p with row q (the change of format on the way in is the identity on extended reals). -/
theorem cross_apply (x0 : FVec Ideal S512x128 .f32) (x1 : FVec Ideal S2048x128 .f32) (p : Fin 512) (q : Fin 2048) :
    matmul dot_S512x128_S2048x128_S512x2048_1_1_0_0_n_n none (truncf .bf16 x0 bitsLt_bf16_f32) (truncf .bf16 x1 bitsLt_bf16_f32) (constant S512x2048 .f32 0x00000000#32) (ix2 p q) = inner x0 x1 p q :=
  Cert.Lib.matmul_rows_zero_apply dot_S512x128_S2048x128_S512x2048_1_1_0_0_n_n_wf none _ _ p q

/-- The tile's entry at (p, q) is the Gaussian weight of row p of the first block against row q of the second:
    the two squared norms, the inner product, and 0 − d² = −d². -/
theorem tileWeights_apply (x0 : FVec Ideal S512x128 .f32) (x1 : FVec Ideal S2048x128 .f32) (p : Fin 512) (q : Fin 2048) :
    tileWeights x0 x1 (ix2 p q) = weight x0 x1 p q := by
  show Ideal.exp (Ideal.div (Ideal.ofBits .f32 0x00000000#32 - ((_ + _) - Ideal.ofBits .f32 0x40000000#32 * _)) (Ideal.ofBits .f32 0x3F800000#32)) = _
  rw [normRow_apply, normCol_apply, cross_apply, Ideal.ofBits_zero_f32, zero_sub]
  rfl

/-- THE COLUMN UPDATE at row p: what the column held plus the sum of the tile's weights along row p. -/
theorem pay3_apply (x0 : FVec Ideal S512x128 .f32) (x1 : FVec Ideal S2048x128 .f32) (acc : FVec Ideal S512x1 .f32)
    (p : Fin 512) (u : Fin 1) :
    k0_pay3 (F := Ideal) x0 x1 acc (ix2 p u) = acc (ix2 p u) + ∑ q : Fin 2048, weight x0 x1 p q := by
  refine (congrFun (pay3_eq x0 x1 acc) (ix2 p u)).trans ?_
  refine (congrFun (shapeCast_self _ _) (ix2 p u)).trans ?_
  show acc (ix2 p u) + _ = acc (ix2 p u) + _
  refine congrArg (acc (ix2 p u) + ·) ?_
  refine (Cert.Lib.shapeCast_a_a1_apply _ _ p u).trans ?_
  refine (Ideal.multiReduction_add_single _ _ reduces_S512x2048_S512 _ _ (ix1 p)).trans ?_
  exact Finset.sum_congr rfl fun q _ => (congrArg (tileWeights x0 x1) (lift512x2048 p q)).trans (tileWeights_apply x0 x1 p q)

/-- The reset value of the column is zero everywhere. -/
theorem pay2_apply (i : S512x1.Idx) : k0_pay2 (F := Ideal) i = 0 := by
  unfold k0_pay2
  exact (congrFun (shapeCast_self _ _) i).trans Ideal.ofBits_zero_f32

/-- THE OUTPUT at row p: the closing formula of the column's entry at row p. -/
theorem pay1_apply (v : FVec Ideal S512x1 .f32) (p : Fin 512) : k0_pay1 (F := Ideal) v (ix1 p) = closing (v (ix2 p (0 : Fin 1))) := by
  unfold k0_pay1
  refine (Cert.Lib.shapeCast_a1_a_apply _ _ p).trans ?_
  rfl

end Cert.KernelIdeal.Payload

end
-- ==== Proof.Blocks.lean ====
import proofs.«180655_j37855841747666_1_alg».proof.Proof.Gen.KernelIdeal.Frame
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The grid's 128 points run row block by row block: point t works on row block t / 8 of the first array (and of the
    result) and on column tile t % 8, that is, on row block t % 8 of the second array. Decided over the grid. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 1) = t.val / 8 :=
  (by decide +kernel : ∀ t : Fin grid0.N, _)

/-- Row p of the first input block at point t is row 512·(t / 8) + p of the first array. -/
theorem blk0_read (c : Dev nD) (t : Fin cfg0.N) (p : Fin 512) (k : Fin 128) (hr : 512 * (t.val / 8) + p.val < 8192) :
    (iblk m c 0 t : Vec F S512x128 .f32) (ix2 p k)
      = m ((c : Thread nD τ).loc main_arg0) (ix2 (⟨512 * (t.val / 8) + p.val, hr⟩ : Fin 8192) k) := by
  obtain ⟨e0, e1, -, -, -⟩ := idx_facts t
  show V m c main_arg0 (((cfg0.win 0).blk t).view.emb (ix2 p k)) = V m c main_arg0 _
  refine congrArg (V m c main_arg0) (funext fun a => Fin.ext ?_)
  match a with
  | ⟨0, _⟩ => show win0_0.index t (0 : Fin 2) * 512 + 1 * p.val = 512 * (t.val / 8) + p.val; rw [e0]; omega
  | ⟨1, _⟩ => show win0_0.index t (1 : Fin 2) * 128 + 1 * k.val = k.val; rw [e1]; omega

/-- Row q of the second input block at point t is row 2048·(t % 8) + q of the second array. -/
theorem blk1_read (c : Dev nD) (t : Fin cfg0.N) (q : Fin 2048) (k : Fin 128) (hk : 2048 * (t.val % 8) + q.val < 16384) :
    (iblk m c 1 t : Vec F S2048x128 .f32) (ix2 q k)
      = m ((c : Thread nD τ).loc main_arg1) (ix2 (⟨2048 * (t.val % 8) + q.val, hk⟩ : Fin 16384) k) := by
  obtain ⟨-, -, e0, e1, -⟩ := idx_facts t
  show V m c main_arg1 (((cfg0.win 1).blk t).view.emb (ix2 q k)) = V m c main_arg1 _
  refine congrArg (V m c main_arg1) (funext fun a => Fin.ext ?_)
  match a with
  | ⟨0, _⟩ => show win0_1.index t (0 : Fin 2) * 2048 + 1 * q.val = 2048 * (t.val % 8) + q.val; rw [e0]; omega
  | ⟨1, _⟩ => show win0_1.index t (1 : Fin 2) * 128 + 1 * k.val = k.val; rw [e1]; omega

end Cert.KernelIdeal.Blocks

end
-- ==== Proof.KernelValue.lean ====
import proofs.«180655_j37855841747666_1_alg».proof.Proof.Gen.KernelIdeal.Value
import proofs.«180655_j37855841747666_1_alg».proof.Proof.Pieces
import proofs.«180655_j37855841747666_1_alg».proof.Proof.Payload
import proofs.«180655_j37855841747666_1_alg».proof.Proof.Blocks
import proofs.«180655_j37855841747666_1_alg».proof.Proof.Spec
import proofs.«180655_j37855841747666_1_alg».proof.Proof.LibTileSum
import Idealize.ShloMosaic.Lib.Pipeline.Value

noncomputable section

namespace Cert.KernelIdeal.KernelValue

open Cert.KernelIdeal Cert.KernelIdeal.Gen Idealize.ShloMosaic Idealize.ShloMosaic.TcCoe Idealize.ShloMosaic.ValueIdx Idealize.SL.Sem Cert.Mmd
open Idealize.ShloMosaic.Pipeline (Dat)

variable (m : (ℓ : Loc nD τ sig) → Buf (Elt Ideal) ℓ) (ρ : Dev nD → PrngReg)

/-- The two argument arrays on core c, as launched. -/
abbrev X (c : Dev nD) : (⟨2, ![8192, 128]⟩ : Shape).Idx → EReal := m ((c : Thread nD τ).loc main_arg0)
abbrev Y (c : Dev nD) : (⟨2, ![16384, 128]⟩ : Shape).Idx → EReal := m ((c : Thread nD τ).loc main_arg1)

/-- The weight of row r of X against row k of Y with the rows named by naturals (zero outside the arrays, which is
    never read): the grid arithmetic below is then arithmetic on naturals. -/
def wgt (c : Dev nD) (r k : ℕ) : EReal :=
  if h : r < 8192 ∧ k < 16384 then weight (X m c) (Y m c) ⟨r, h.1⟩ ⟨k, h.2⟩ else 0

/-- WHAT GRID POINT n ADDS to the carried column at row p of its row block: the sum, over the 2048 rows of Y in column
    tile n % 8, of the weights of row 512·(n / 8) + p of X. -/
def tileSum (c : Dev nD) (n : ℕ) (i : S512x1.Idx) : EReal :=
  ∑ q : Fin 2048, wgt m c (512 * (n / 8) + (i 0).val) (2048 * (n % 8) + q.val)

/-- The weights the body computes from its two blocks at point t are the weights of the rows of X and Y those
    blocks are cut from. -/
theorem weight_blocks (c : Dev nD) (t : Fin cfg0.N) (p : Fin 512) (q : Fin 2048) :
    weight (A := 512) (B := 2048) (iblk m c 0 t) (iblk m c 1 t) p q
      = wgt m c (512 * (t.val / 8) + p.val) (2048 * (t.val % 8) + q.val) := by
  have hN : t.val < 128 := lt_of_lt_of_eq t.isLt N_0
  have hr : 512 * (t.val / 8) + p.val < 8192 := by have := p.isLt; omega
  have hk : 2048 * (t.val % 8) + q.val < 16384 := by have := q.isLt; omega
  unfold wgt
  rw [dif_pos ⟨hr, hk⟩]
  unfold weight sqNorm Cert.Mmd.inner
  simp only [Blocks.blk0_read m c t _ _ hr, Blocks.blk1_read m c t _ _ hk]

/-- At the first point of a row block the column is reset and then receives the point's sums. -/
theorem step_reset (c : Dev nD) (n : ℕ) (hb : n < cfg0.N) (h0 : n % 8 = 0) (acc : Vec Ideal S512x1 .f32)
    (p : Fin 512) (u : Fin 1) :
    Value.scAt0_0 m c n hb acc (ix2 p u) = 0 + tileSum m c n (ix2 p u) := by
  have h1 : ¬n % 8 = 7 := by omega
  unfold Value.scAt0_0
  rw [dif_pos h0, dif_neg h1]
  refine (congrFun (Pieces.scratch_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 (⟨n, hb⟩ : Fin cfg0.N)) (iblk m c 1 (⟨n, hb⟩ : Fin cfg0.N))) (ix2 p u)).trans ?_
  refine (Payload.pay3_apply (iblk m c 0 (⟨n, hb⟩ : Fin cfg0.N)) (iblk m c 1 (⟨n, hb⟩ : Fin cfg0.N)) _ p u).trans ?_
  rw [Payload.pay2_apply]
  exact congrArg (0 + ·) (Finset.sum_congr rfl fun q _ => weight_blocks m c (⟨n, hb⟩ : Fin cfg0.N) p q)

/-- At every other point the column receives the point's sums on top of what it held. -/
theorem step_add (c : Dev nD) (n : ℕ) (hb : n < cfg0.N) (h0 : ¬n % 8 = 0) (acc : Vec Ideal S512x1 .f32)
    (p : Fin 512) (u : Fin 1) :
    Value.scAt0_0 m c n hb acc (ix2 p u) = acc (ix2 p u) + tileSum m c n (ix2 p u) := by
  unfold Value.scAt0_0
  rw [dif_neg h0]
  by_cases h1 : n % 8 = 7
  · rw [dif_pos h1]
    refine (congrFun (Pieces.scratch_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 (⟨n, hb⟩ : Fin cfg0.N)) (iblk m c 1 (⟨n, hb⟩ : Fin cfg0.N)) acc) (ix2 p u)).trans ?_
    refine (Payload.pay3_apply (iblk m c 0 (⟨n, hb⟩ : Fin cfg0.N)) (iblk m c 1 (⟨n, hb⟩ : Fin cfg0.N)) acc p u).trans ?_
    exact congrArg (acc (ix2 p u) + ·) (Finset.sum_congr rfl fun q _ => weight_blocks m c (⟨n, hb⟩ : Fin cfg0.N) p q)
  · rw [dif_neg h1]
    refine (congrFun (Pieces.scratch_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) _ _ (iblk m c 0 (⟨n, hb⟩ : Fin cfg0.N)) (iblk m c 1 (⟨n, hb⟩ : Fin cfg0.N)) acc) (ix2 p u)).trans ?_
    refine (Payload.pay3_apply (iblk m c 0 (⟨n, hb⟩ : Fin cfg0.N)) (iblk m c 1 (⟨n, hb⟩ : Fin cfg0.N)) acc p u).trans ?_
    exact congrArg (acc (ix2 p u) + ·) (Finset.sum_congr rfl fun q _ => weight_blocks m c (⟨n, hb⟩ : Fin cfg0.N) p q)

/-- THE CARRIED COLUMN after point t holds, at each row, the sums of the points of t's row block up to t:
    the fold from the block's first point, unrolled. -/
theorem column_after (c : Dev nD) (t : Fin cfg0.N) (i : S512x1.Idx) :
    (outsAt0 m c t.val t.isLt).2 i = ∑ s ∈ Finset.range (t.val % 8 + 1), tileSum m c (8 * (t.val / 8) + s) i := by
  have hN : cfg0.N = 128 := N_0
  have ht := t.isLt
  rw [Value.soutsAt0_0_eq m c t]
  refine (Pipeline.accAt_add_apply (ι := S512x1.Idx) (β := EReal) _ _ (fun _ => (0 : EReal)) (tileSum m c) (8 * (t.val / 8)) 7 ?_ ?_
    (t.val % 8) (by omega) _ i).trans (zero_add _)
  · intro h j
    obtain ⟨p, u, rfl⟩ : ∃ (p : Fin 512) (u : Fin 1), j = ix2 p u := ⟨j 0, j 1, eq_ix2 j⟩
    exact step_reset m c _ h (by omega) _ p u
  · intro n h acc j hlo hhi
    obtain ⟨p, u, rfl⟩ : ∃ (p : Fin 512) (u : Fin 1), j = ix2 p u := ⟨j 0, j 1, eq_ix2 j⟩
    exact step_add m c n h (by omega) acc p u

/-- A row block's eight tiles together are all 16384 rows of Y: the eight points' sums add up to the row's sum of
    weights (a sum over 8 · 2048 positions taken tile by tile). -/
theorem row_total (c : Dev nD) (a : ℕ) (p : Fin 512) (hr : 512 * a + p.val < 8192) :
    ∑ s ∈ Finset.range 8, tileSum m c (8 * a + s) (ix2 p (0 : Fin 1))
      = ∑ k : Fin 16384, weight (X m c) (Y m c) ⟨512 * a + p.val, hr⟩ k := by
  have e1 : ∀ s ∈ Finset.range 8, tileSum m c (8 * a + s) (ix2 p (0 : Fin 1))
      = ∑ q : Fin 2048, wgt m c (512 * a + p.val) (2048 * s + q.val) := by
    intro s hs
    have hs' : s < 8 := Finset.mem_range.mp hs
    have d1 : (8 * a + s) / 8 = a := by omega
    have d2 : (8 * a + s) % 8 = s := by omega
    show ∑ q : Fin 2048, wgt m c (512 * ((8 * a + s) / 8) + p.val) (2048 * ((8 * a + s) % 8) + q.val) = _
    rw [d1, d2]
  rw [Finset.sum_congr rfl e1, Cert.Lib.sum_fin_tiles (wgt m c (512 * a + p.val)) 2048 8 (N := 16384) (by norm_num)]
  refine Finset.sum_congr rfl fun k _ => ?_
  unfold wgt
  rw [dif_pos ⟨hr, k.isLt⟩]

/-- WHAT A WRITING POINT WRITES BACK: the last point of a row block writes the block of the result at that row block. -/
theorem flushed_eq (c : Dev nD) (t : Fin cfg0.N) (hf : (cfg0.win 2).flush t = true) :
    (dats m 0 c).flushed 2 t = ((cfg0.win 2).blk t).view.read (Elt Ideal) (result (X m c) (Y m c)) := by
  have hN : t.val < 128 := lt_of_lt_of_eq t.isLt N_0
  have h1 : t.val % 8 = 7 := (flush0_2 t).mp hf
  have h0 : ¬t.val % 8 = 0 := by omega
  obtain ⟨-, -, -, -, e2⟩ := Blocks.idx_facts t
  have eout := Pieces.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2
  have ecol : k0_pay3 (F := Ideal) (iblk m c 0 t) (iblk m c 1 t) (outsAt0 m c (t.val - 1) (Nat.lt_of_le_of_lt (Nat.sub_le _ _) t.isLt)).2
      = (outsAt0 m c t.val t.isLt).2 := by
    rw [outsAt0_C m c t h0 h1]
    exact (Pieces.scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).symm
  rw [Value.flushed2_C m c t h0 h1, eout, ecol]
  funext y
  obtain ⟨p, rfl⟩ : ∃ p : Fin 512, y = ix1 p := ⟨y 0, eq_ix1 y⟩
  have hr : 512 * (t.val / 8) + p.val < 8192 := by have := p.isLt; omega
  have hemb : ((cfg0.win 2).blk t).view.emb (ix1 p) = ix1 (⟨512 * (t.val / 8) + p.val, hr⟩ : Fin 8192) :=
    funext fun a => Fin.ext (by
      match a with
      | ⟨0, _⟩ => show win0_2.index t (0 : Fin 1) * 512 + 1 * p.val = 512 * (t.val / 8) + p.val; rw [e2]; omega)
  show k0_pay1 (F := Ideal) (outsAt0 m c t.val t.isLt).2 (ix1 p) = result (X m c) (Y m c) (((cfg0.win 2).blk t).view.emb (ix1 p))
  rw [hemb, result_apply, Payload.pay1_apply, column_after m c t (ix2 p (0 : Fin 1)), h1]
  exact congrArg closing (row_total m c (t.val / 8) p hr)

/-- An index of the result is in point t's block iff it lies in the 512 rows of t's row block. -/
theorem mem_blk (t : Fin cfg0.N) (i : S8192.Idx) :
    i ∈ ((cfg0.win 2).blk t).view.set ↔ ∀ a : Fin 1, win0_2.index t a * S512.size a ≤ (i a).val ∧ (i a).val < win0_2.index t a * S512.size a + S512.size a := by
  show i ∈ ((View.whole main_v0).slice (win0_2.rect t)).set ↔ _
  rw [View.set_slice_whole, Rect.mem_set_unit]
  exact Iff.rfl

/-- Every row of the result lies in the block of the last point of its row block, which writes back. -/
theorem cover (i : S8192.Idx) : ∃ t : Fin cfg0.N, (cfg0.win 2).flush t = true ∧ i ∈ ((cfg0.win 2).blk t).view.set := by
  have hi : (i 0).val < 8192 := (i 0).isLt
  have hN : cfg0.N = 128 := N_0
  have hlt : 8 * ((i 0).val / 512) + 7 < cfg0.N := by omega
  obtain ⟨-, -, -, -, e2⟩ := Blocks.idx_facts ⟨8 * ((i 0).val / 512) + 7, hlt⟩
  refine ⟨⟨8 * ((i 0).val / 512) + 7, hlt⟩, (flush0_2 _).mpr (by show (8 * ((i 0).val / 512) + 7) % 8 = 7; omega), ?_⟩
  rw [mem_blk]
  intro a
  match a with
  | ⟨0, _⟩ =>
    show win0_2.index ⟨8 * ((i 0).val / 512) + 7, hlt⟩ (0 : Fin 1) * 512 ≤ (i 0).val
      ∧ (i 0).val < win0_2.index ⟨8 * ((i 0).val / 512) + 7, hlt⟩ (0 : Fin 1) * 512 + 512
    rw [e2]
    show (8 * ((i 0).val / 512) + 7) / 8 * 512 ≤ (i 0).val ∧ (i 0).val < (8 * ((i 0).val / 512) + 7) / 8 * 512 + 512
    omega

/-- THE RESULT ARRAY after the run is the result function of the two argument arrays. -/
theorem final (c : Dev nD) : (dats m 0 c).arrAt 2 cfg0.N = result (X m c) (Y m c) :=
  (dats m 0 c).arrAt_eq_of_cover 2 (result (X m c) (Y m c)) (fun t hf => flushed_eq m c t hf) (fun i => cover i)

/-- The kernel's run, read: the result array at the result function, the arguments unchanged. -/
theorem run : θ_run defs (onTc (τ := τ) (main (F := Ideal))) ⟨m, fun _ => 0, ρ⟩ fun r => ∀ c : Dev nD,
      r.2.mem ((c : Thread nD τ).loc main_v0) = result (X m c) (Y m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelValue

end
-- ==== Proof.RefValue.lean ====
import proofs.«180655_j37855841747666_1_alg».proof.Proof.Gen.ReferenceIdeal.Read
import proofs.«180655_j37855841747666_1_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Mmd

/-! The reference's broadcasts, transpose and reductions only move indices around: at entry (r, s) of the [8192, 16384]
    table the squared norm of x_r is read from row r, that of y_s from row s, and the product of X with the transpose
    of Y pairs entry (r, k) of X with entry (s, k) of Y. -/

theorem rowX (r : Fin 8192) (s : Fin 16384) (k : Fin 128) :
    idx_main_v1 (idx_main_v2 (idx_main_v8 (ix2 r s))) k = ix2 r k :=
  funext fun a => Fin.ext (by match a with | ⟨0, _⟩ => rfl | ⟨1, _⟩ => rfl)

theorem rowY (r : Fin 8192) (s : Fin 16384) (k : Fin 128) :
    idx_main_v4 (idx_main_v7 (idx_main_v9 (ix2 r s))) k = ix2 s k :=
  funext fun a => Fin.ext (by match a with | ⟨0, _⟩ => rfl | ⟨1, _⟩ => rfl)

theorem dotX (r : Fin 8192) (s : Fin 16384) (k : Fin 128) : lidx_main_v6 (ix2 r s) k = ix2 r k :=
  funext fun a => Fin.ext (by match a with | ⟨0, _⟩ => rfl | ⟨1, _⟩ => rfl)

theorem dotY (r : Fin 8192) (s : Fin 16384) (k : Fin 128) : idx_main_v5 (ridx_main_v6 (ix2 r s) k) = ix2 s k :=
  funext fun a => Fin.ext (by match a with | ⟨0, _⟩ => rfl | ⟨1, _⟩ => rfl)

theorem rowTable (r : Fin 8192) (s : Fin 16384) : idx_main_v18 (ix1 r) s = ix2 r s :=
  funext fun a => Fin.ext (by match a with | ⟨0, _⟩ => rfl | ⟨1, _⟩ => rfl)

/-- The reference's table of weights, at (r, s): the Gaussian weight of row r of X against row s of Y. Its sums
    start from a zero, which adds nothing, and its negation is the negation. -/
theorem table_apply (X : (⟨S8192x128, .f32⟩ : BufTy).Contents (Elt Ideal)) (Y : (⟨S16384x128, .f32⟩ : BufTy).Contents (Elt Ideal)) (r : Fin 8192) (s : Fin 16384) :
    val_main_v17 (F := Ideal) X Y (ix2 r s) = weight X Y r s := by
  rw [val_main_v17_apply, val_main_v16_apply, val_main_v15_apply, val_main_cst_2_apply, val_main_v14_apply,
    val_main_v13_apply, val_main_v10_apply, val_main_v8_apply, val_main_v2_apply, val_main_v1_apply,
    val_main_v9_apply, val_main_v7_apply, val_main_v4_apply, val_main_v12_apply, val_main_v11_apply,
    val_main_cst_1_apply, val_main_v6_apply]
  simp only [val_main_v0_apply, val_main_v3_apply, val_main_v5_apply, val_main_cst_apply, val_main_cst_0_apply,
    rowX, rowY, dotX, dotY, Ideal.ofBits_def, Ideal.hostUnary_exp_def, Ideal.hostDivf_def, Ideal.hostNegf_def,
    Ideal.negf_def, Ideal.subf_def, Ideal.addf_def, Ideal.mulf_def, Ideal.ofBits_zero_f32, zero_add]
  rfl

/-- The reference's row sums of the table: at r, the sum over all rows of Y of the weights of row r. -/
theorem rowSum_apply (X : (⟨S8192x128, .f32⟩ : BufTy).Contents (Elt Ideal)) (Y : (⟨S16384x128, .f32⟩ : BufTy).Contents (Elt Ideal)) (r : Fin 8192) :
    val_main_v18 (F := Ideal) X Y (ix1 r) = ∑ s : Fin 16384, weight X Y r s := by
  rw [val_main_v18_apply, val_main_cst_3_apply, Ideal.ofBits_def, Ideal.ofBits_zero_f32, zero_add]
  exact Finset.sum_congr rfl fun s _ =>
    (congrArg (val_main_v17 (F := Ideal) X Y) (rowTable r s)).trans (table_apply X Y r s)

/-- THE REFERENCE IS THE RESULT: its last operations are the closing formula of the row sums, entry by entry. -/
theorem ref_eq (X : (⟨S8192x128, .f32⟩ : BufTy).Contents (Elt Ideal)) (Y : (⟨S16384x128, .f32⟩ : BufTy).Contents (Elt Ideal)) : val_main_v29 (F := Ideal) X Y = result X Y := by
  funext i
  obtain ⟨r, rfl⟩ : ∃ r : Fin 8192, i = ix1 r := ⟨i 0, eq_ix1 i⟩
  rw [result_apply, ← rowSum_apply X Y r]
  rw [val_main_v29_apply, val_main_v27_apply, val_main_v26_apply, val_main_v25_apply, val_main_v20_apply,
    val_main_v24_apply, val_main_v22_apply, val_main_v19_apply, val_main_v21_apply, val_main_v23_apply,
    val_main_v28_apply, val_main_cst_4_apply, val_main_cst_5_apply, val_main_cst_6_apply, val_main_cst_7_apply]
  simp only [Ideal.ofBits_def, Ideal.hostUnary_sqrt_def, Ideal.hostDivf_def, Ideal.subf_def, Ideal.addf_def,
    Ideal.mulf_def]
  rfl

end Cert.ReferenceIdeal.RefValue

end
-- ==== Proof.lean ====
/-
  The kernel and its reference compute one statistic of two arrays of rows, X of 8192 rows and Y of 16384 rows of
  128 numbers: for each row x_r of X, the sum K_r over all rows y_s of Y of the Gaussian weights
  exp(−(|x_r|² + |y_s|² − 2·⟨x_r, y_s⟩) / 1), closed by sqrt(K_r / m² − 2·K_r / m + K_r) + ε.

  The reference builds the whole 8192 × 16384 table of weights and sums each row at once. The kernel walks a grid of
  16 row blocks by 8 column tiles; at each point it computes a 512 × 2048 tile of the table from a block of X and a
  block of Y, sums the tile's rows, and adds the sums to a column it carries from tile to tile, reset at a row block's
  first tile; at the last tile it applies the closing formula and writes the 512 results out.

  On the extended reals the two agree entry by entry with no condition on the inputs: a format change is the
  identity, the product of rows with rows into a zero accumulator is the sum over the shared axis, 0 − d is −d, sums
  that start from zero are the plain sums, and a sum over 16384 positions taken in 8 tiles of 2048 is the same sum,
  because addition of extended reals is commutative and associative. Nothing is distributed, cancelled or moved across
  a sum, so finiteness of the inputs is never used.

  The idealization rewrote nothing, so the kernel is its own idealization.
-/
import proofs.«180655_j37855841747666_1_alg».proof.Defs
import proofs.«180655_j37855841747666_1_alg».proof.Proof.Gen.Kernel
import proofs.«180655_j37855841747666_1_alg».proof.Proof.Gen.Kernel.Frame
import proofs.«180655_j37855841747666_1_alg».proof.Proof.Gen.KernelIdeal
import proofs.«180655_j37855841747666_1_alg».proof.Proof.Gen.KernelIdeal.Frame
import proofs.«180655_j37855841747666_1_alg».proof.Proof.Gen.KernelIdeal.Value
import proofs.«180655_j37855841747666_1_alg».proof.Proof.Gen.ReferenceIdeal
import proofs.«180655_j37855841747666_1_alg».proof.Proof.Gen.ReferenceIdeal.Run
import proofs.«180655_j37855841747666_1_alg».proof.Proof.Gen.ReferenceIdeal.Read
import proofs.«180655_j37855841747666_1_alg».proof.Proof.Gen.Pre_finite_inputs
import proofs.«180655_j37855841747666_1_alg».proof.Proof.KernelValue
import proofs.«180655_j37855841747666_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- Both programs end with the result array at the same function of the two argument arrays. -/
theorem algebraic : Cert.algebraic_KernelIdeal_ReferenceIdeal := by
  intro m ρ m' ρ' _ hagree
  refine ⟨fun c => Cert.Mmd.result (Cert.KernelIdeal.KernelValue.X m c) (Cert.KernelIdeal.KernelValue.Y m c),
    Cert.KernelIdeal.KernelValue.run m ρ, ?_⟩
  refine (θ_run Cert.ReferenceIdeal.defs _ _).mono (fun r h c => ⟨?_, (h c).2⟩)
    (Cert.ReferenceIdeal.Value.run (F := Ideal) m' ρ')
  rw [(h c).1, Cert.ReferenceIdeal.Read.val_main_v29_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
